-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x128 : Shape := ⟨3, ![64, 512, 128]⟩
abbrev S64x512x2 : Shape := ⟨3, ![64, 512, 2]⟩
abbrev S_ : Shape := ⟨0, ![]⟩

class Facts : Prop where
  bcast_S_S64x512x128 : S_.BroadcastsInDim S64x512x128 (![] : Fin 0 → Fin S64x512x128.rank)
  reducesTo_S64x512x128_S_d0_1_2 : S64x512x128.ReducesTo [0, 1, 2] S_
  h_S_ : 0 < S_.numel
  bcast_S_S64x512x2 : S_.BroadcastsInDim S64x512x2 (![] : Fin 0 → Fin S64x512x2.rank)
  reducesTo_S64x512x2_S_d0_1_2 : S64x512x2.ReducesTo [0, 1, 2] S_

variable [Facts]

def fn {F : FTy → Type} [FloatOps F] (main_arg0 : FVec F S64x512x128 .f32) (main_arg1 : FVec F S64x512x2 .f32) : IVec S_ 1 :=
  let main_v0 : FVec F S64x512x128 .f32 := Host.absf main_arg0
  let main_cst : FVec F S_ .f32 := constant S_ .f32 0x7F800000#32
  let main_v1 : FVec F S64x512x128 .f32 := broadcastInDim S64x512x128 ![] bcast_S_S64x512x128 main_cst
  let main_v2 : IVec S64x512x128 1 := cmpf .olt main_v0 main_v1
  let main_c : IVec S_ 1 := constantI S_ 1 1#1
  let main_v3 : IVec S_ 1 := (fun x v => Host.reduce IntOp.andi x v reducesTo_S64x512x128_S_d0_1_2 h_S_) main_v2 main_c
  let main_v4 : FVec F S64x512x2 .f32 := Host.absf main_arg1
  let main_cst_0 : FVec F S_ .f32 := constant S_ .f32 0x7F800000#32
  let main_v5 : FVec F S64x512x2 .f32 := broadcastInDim S64x512x2 ![] bcast_S_S64x512x2 main_cst_0
  let main_v6 : IVec S64x512x2 1 := cmpf .olt main_v4 main_v5
  let main_c_1 : IVec S_ 1 := constantI S_ 1 1#1
  let main_v7 : IVec S_ 1 := (fun x v => Host.reduce IntOp.andi x v reducesTo_S64x512x2_S_d0_1_2 h_S_) main_v6 main_c_1
  let main_v8 : IVec S_ 1 := andi main_v3 main_v7
  main_v8
-- ==== Kernel.lean ====
abbrev S64x512x128 : Shape := ⟨3, ![64, 512, 128]⟩
abbrev S64x512x2 : Shape := ⟨3, ![64, 512, 2]⟩
abbrev S2x64x512x512 : Shape := ⟨4, ![2, 64, 512, 512]⟩
abbrev S1x512x128 : Shape := ⟨3, ![1, 512, 128]⟩
abbrev S1x512x2 : Shape := ⟨3, ![1, 512, 2]⟩
abbrev S2x1x512x512 : Shape := ⟨4, ![2, 1, 512, 512]⟩
abbrev S512x128 : Shape := ⟨2, ![512, 128]⟩
abbrev S512x2 : Shape := ⟨2, ![512, 2]⟩
abbrev S512 : Shape := ⟨1, ![512]⟩
abbrev S512x1 : Shape := ⟨2, ![512, 1]⟩
abbrev S128x512 : Shape := ⟨2, ![128, 512]⟩
abbrev S512x512 : Shape := ⟨2, ![512, 512]⟩
abbrev S512x1x2 : Shape := ⟨3, ![512, 1, 2]⟩
abbrev S512x512x2 : Shape := ⟨3, ![512, 512, 2]⟩
abbrev S1x1x512x512 : Shape := ⟨4, ![1, 1, 512, 512]⟩

abbrev nBuf : Space → Nat
  | .hbm => 3
  | .vmem => 6
  | .smem => 0
  | _ => 0

abbrev bufTy : (tb : Table) → Fin (tcTables nBuf tb) → BufTy
  | .hbm, ⟨0, _⟩ => ⟨S64x512x128, .f32⟩
  | .hbm, ⟨1, _⟩ => ⟨S64x512x2, .f32⟩
  | .hbm, ⟨2, _⟩ => ⟨S2x64x512x512, .f32⟩
  | .local _ .vmem, ⟨0, _⟩ => ⟨S1x512x128, .f32⟩
  | .local _ .vmem, ⟨1, _⟩ => ⟨S1x512x128, .f32⟩
  | .local _ .vmem, ⟨2, _⟩ => ⟨S1x512x2, .f32⟩
  | .local _ .vmem, ⟨3, _⟩ => ⟨S1x512x2, .f32⟩
  | .local _ .vmem, ⟨4, _⟩ => ⟨S2x1x512x512, .f32⟩
  | .local _ .vmem, ⟨5, _⟩ => ⟨S2x1x512x512, .f32⟩
  | _, _ => ⟨S64x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S1x512x2_S1x512x2_0_0_0 : ∀ a, (![0, 0, 0] : Fin 3 → Nat) a + S1x512x2.size a ≤ S1x512x2.size a
  h_S1x512x2 : 0 < S1x512x2.numel
  shapeCasts_S1x512x2_S512x2 : S1x512x2.ShapeCasts S512x2
  reduces_S512x128_S512 : S512x128.Reduces [1] S512
  shapeCasts_S512_S512x1 : S512.ShapeCasts S512x1
  broadcasts_S512x1_S512x128 : S512x1.Broadcasts S512x128
  transposes_S512x128_p1_0_S128x512 : S512x128.Transposes [1, 0] S128x512
  shapeCasts_S512x2_S512x1x2 : S512x2.ShapeCasts S512x1x2
  shapeCasts_S512x2_S1x512x2 : S512x2.ShapeCasts S1x512x2
  broadcasts_S512x1x2_S512x512x2 : S512x1x2.Broadcasts S512x512x2
  broadcasts_S1x512x2_S512x512x2 : S1x512x2.Broadcasts S512x512x2
  reduces_S512x512x2_S512x512 : S512x512x2.Reduces [2] S512x512
  iota_S512x512_d0_w32 : S512x512.Iotas .tc 32 [0]
  iota_S512x512_d1_w32 : S512x512.Iotas .tc 32 [1]
  natLt_1_32 : 1 < 32
  inb_S2x1x512x512_S1x1x512x512_0_0_0_0 : ∀ a, (![0, 0, 0, 0] : Fin 4 → Nat) a + S1x1x512x512.size a ≤ S2x1x512x512.size a
  h_S1x1x512x512 : 0 < S1x1x512x512.numel
  shapeCasts_S1x1x512x512_S512x512 : S1x1x512x512.ShapeCasts S512x512
  shapeCasts_S512x512_S1x1x512x512 : S512x512.ShapeCasts S1x1x512x512
  inb_S2x1x512x512_S1x1x512x512_1_0_0_0 : ∀ a, (![1, 0, 0, 0] : Fin 4 → Nat) a + S1x1x512x512.size a ≤ S2x1x512x512.size a
  dot_S512x128_S128x512_S512x512_1_0_0_1_n_n_wf : DotDims.WF S512x128 S128x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x128.size a ≤ S64x512x128.size a
  hwx0_0 : ∀ i : grid0.Coords, EltTy.bits .f32 = 32 ∨ (Rect.block (s := S64x512x128) S1x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x2.size a ≤ S64x512x2.size a
  hwx0_1 : ∀ i : grid0.Coords, EltTy.bits .f32 = 32 ∨ (Rect.block (s := S64x512x2) S1x512x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x1x512x512.size a ≤ S2x64x512x512.size a
  hwx0_2 : ∀ i : grid0.Coords, EltTy.bits .f32 = 32 ∨ (Rect.block (s := S2x64x512x512) S2x1x512x512.size (cc0_transform_2 i) (hinb0_2 i)).WholeWords (EltTy.packing .f32)

variable [Facts₀]

def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf

abbrev win0_0 : Pipeline.Window sig grid0 :=
  Pipeline.Window.ofSpec (Memref.whole main_arg0) S1x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2x1x512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x512x128 : Shape := ⟨3, ![64, 512, 128]⟩
abbrev S64x512x2 : Shape := ⟨3, ![64, 512, 2]⟩
abbrev S_ : Shape := ⟨0, ![]⟩
abbrev S64x512 : Shape := ⟨2, ![64, 512]⟩
abbrev S64x512x1 : Shape := ⟨3, ![64, 512, 1]⟩
abbrev S64x512x512 : Shape := ⟨3, ![64, 512, 512]⟩
abbrev S64x512x1x2 : Shape := ⟨4, ![64, 512, 1, 2]⟩
abbrev S64x1x512x2 : Shape := ⟨4, ![64, 1, 512, 2]⟩
abbrev S64x512x512x2 : Shape := ⟨4, ![64, 512, 512, 2]⟩
abbrev S512x512 : Shape := ⟨2, ![512, 512]⟩
abbrev S1x512x512 : Shape := ⟨3, ![1, 512, 512]⟩
abbrev S1x64x512x512 : Shape := ⟨4, ![1, 64, 512, 512]⟩
abbrev S2x64x512x512 : Shape := ⟨4, ![2, 64, 512, 512]⟩

abbrev nBuf : Space → Nat
  | .hbm => 59
  | .vmem => 0
  | .smem => 0
  | _ => 0

abbrev bufTy : (tb : Table) → Fin (tcTables nBuf tb) → BufTy
  | .hbm, ⟨0, _⟩ => ⟨S64x512x128, .f32⟩
  | .hbm, ⟨1, _⟩ => ⟨S64x512x2, .f32⟩
  | .hbm, ⟨2, _⟩ => ⟨S64x512x128, .f32⟩
  | .hbm, ⟨3, _⟩ => ⟨S_, .f32⟩
  | .hbm, ⟨4, _⟩ => ⟨S64x512, .f32⟩
  | .hbm, ⟨5, _⟩ => ⟨S64x512x1, .f32⟩
  | .hbm, ⟨6, _⟩ => ⟨S64x512x1, .f32⟩
  | .hbm, ⟨7, _⟩ => ⟨S_, .f32⟩
  | .hbm, ⟨8, _⟩ => ⟨S64x512x1, .f32⟩
  | .hbm, ⟨9, _⟩ => ⟨S64x512x1, .f32⟩
  | .hbm, ⟨10, _⟩ => ⟨S64x512x128, .f32⟩
  | .hbm, ⟨11, _⟩ => ⟨S64x512x128, .f32⟩
  | .hbm, ⟨12, _⟩ => ⟨S64x512x512, .f32⟩
  | .hbm, ⟨13, _⟩ => ⟨S64x512x1x2, .f32⟩
  | .hbm, ⟨14, _⟩ => ⟨S64x1x512x2, .f32⟩
  | .hbm, ⟨15, _⟩ => ⟨S64x512x512x2, .f32⟩
  | .hbm, ⟨16, _⟩ => ⟨S64x512x512x2, .f32⟩
  | .hbm, ⟨17, _⟩ => ⟨S64x512x512x2, .f32⟩
  | .hbm, ⟨18, _⟩ => ⟨S64x512x512x2, .f32⟩
  | .hbm, ⟨19, _⟩ => ⟨S_, .f32⟩
  | .hbm, ⟨20, _⟩ => ⟨S64x512x512, .f32⟩
  | .hbm, ⟨21, _⟩ => ⟨S512x512, .i32⟩
  | .hbm, ⟨22, _⟩ => ⟨S512x512, .i32⟩
  | .hbm, ⟨23, _⟩ => ⟨S_, .i32⟩
  | .hbm, ⟨24, _⟩ => ⟨S512x512, .i32⟩
  | .hbm, ⟨25, _⟩ => ⟨S512x512, .i32⟩
  | .hbm, ⟨26, _⟩ => ⟨S512x512, .i1⟩
  | .hbm, ⟨27, _⟩ => ⟨S512x512, .f32⟩
  | .hbm, ⟨28, _⟩ => ⟨S1x512x512, .f32⟩
  | .hbm, ⟨29, _⟩ => ⟨S64x512x512, .f32⟩
  | .hbm, ⟨30, _⟩ => ⟨S64x512x512, .f32⟩
  | .hbm, ⟨31, _⟩ => ⟨S64x512x512, .f32⟩
  | .hbm, ⟨32, _⟩ => ⟨S_, .f32⟩
  | .hbm, ⟨33, _⟩ => ⟨S512x512, .f32⟩
  | .hbm, ⟨34, _⟩ => ⟨S512x512, .f32⟩
  | .hbm, ⟨35, _⟩ => ⟨S64x512x512, .f32⟩
  | .hbm, ⟨36, _⟩ => ⟨S_, .f32⟩
  | .hbm, ⟨37, _⟩ => ⟨S64x512x512, .f32⟩
  | .hbm, ⟨38, _⟩ => ⟨S64x512x512, .f32⟩
  | .hbm, ⟨39, _⟩ => ⟨S64x512x512, .f32⟩
  | .hbm, ⟨40, _⟩ => ⟨S64x512x512, .f32⟩
  | .hbm, ⟨41, _⟩ => ⟨S1x512x512, .f32⟩
  | .hbm, ⟨42, _⟩ => ⟨S64x512x512, .f32⟩
  | .hbm, ⟨43, _⟩ => ⟨S64x512x512, .f32⟩
  | .hbm, ⟨44, _⟩ => ⟨S_, .f32⟩
  | .hbm, ⟨45, _⟩ => ⟨S64x512x512, .f32⟩
  | .hbm, ⟨46, _⟩ => ⟨S64x512x512, .i1⟩
  | .hbm, ⟨47, _⟩ => ⟨S_, .f32⟩
  | .hbm, ⟨48, _⟩ => ⟨S_, .f32⟩
  | .hbm, ⟨49, _⟩ => ⟨S64x512x512, .f32⟩
  | .hbm, ⟨50, _⟩ => ⟨S64x512x512, .f32⟩
  | .hbm, ⟨51, _⟩ => ⟨S64x512x512, .f32⟩
  | .hbm, ⟨52, _⟩ => ⟨S64x512x512, .f32⟩
  | .hbm, ⟨53, _⟩ => ⟨S1x512x512, .f32⟩
  | .hbm, ⟨54, _⟩ => ⟨S64x512x512, .f32⟩
  | .hbm, ⟨55, _⟩ => ⟨S64x512x512, .f32⟩
  | .hbm, ⟨56, _⟩ => ⟨S1x64x512x512, .f32⟩
  | .hbm, ⟨57, _⟩ => ⟨S1x64x512x512, .f32⟩
  | .hbm, ⟨58, _⟩ => ⟨S2x64x512x512, .f32⟩
  | _, _ => ⟨S64x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_cst_5 : Ref sig .tc := ⟨.hbm, 48, rfl⟩
abbrev main_call1_v0 : Ref sig .tc := ⟨.hbm, 49, rfl⟩
abbrev main_call1_v1 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]

class Facts₀ : Prop where
  reducesTo_S64x512x128_S64x512_d2 : S64x512x128.ReducesTo [2] S64x512
  h_S_ : 0 < S_.numel
  bcast_S64x512_S64x512x1_0_1 : S64x512.BroadcastsInDim S64x512x1 (![0, 1] : Fin 2 → Fin S64x512x1.rank)
  bcast_S_S64x512x1 : S_.BroadcastsInDim S64x512x1 (![] : Fin 0 → Fin S64x512x1.rank)
  bcast_S64x512x1_S64x512x128_0_1_2 : S64x512x1.BroadcastsInDim S64x512x128 (![0, 1, 2] : Fin 3 → Fin S64x512x128.rank)
  bcast_S64x512x2_S64x512x1x2_0_1_3 : S64x512x2.BroadcastsInDim S64x512x1x2 (![0, 1, 3] : Fin 3 → Fin S64x512x1x2.rank)
  bcast_S64x512x2_S64x1x512x2_0_2_3 : S64x512x2.BroadcastsInDim S64x1x512x2 (![0, 2, 3] : Fin 3 → Fin S64x1x512x2.rank)
  bcast_S64x512x1x2_S64x512x512x2_0_1_2_3 : S64x512x1x2.BroadcastsInDim S64x512x512x2 (![0, 1, 2, 3] : Fin 4 → Fin S64x512x512x2.rank)
  bcast_S64x1x512x2_S64x512x512x2_0_1_2_3 : S64x1x512x2.BroadcastsInDim S64x512x512x2 (![0, 1, 2, 3] : Fin 4 → Fin S64x512x512x2.rank)
  reducesTo_S64x512x512x2_S64x512x512_d3 : S64x512x512x2.ReducesTo [3] S64x512x512
  bcast_S_S512x512 : S_.BroadcastsInDim S512x512 (![] : Fin 0 → Fin S512x512.rank)
  bcast_S512x512_S1x512x512_1_2 : S512x512.BroadcastsInDim S1x512x512 (![1, 2] : Fin 2 → Fin S1x512x512.rank)
  bcast_S1x512x512_S64x512x512_0_1_2 : S1x512x512.BroadcastsInDim S64x512x512 (![0, 1, 2] : Fin 3 → Fin S64x512x512.rank)
  bcast_S_S64x512x512 : S_.BroadcastsInDim S64x512x512 (![] : Fin 0 → Fin S64x512x512.rank)
  bcast_S64x512x512_S1x64x512x512_1_2_3 : S64x512x512.BroadcastsInDim S1x64x512x512 (![1, 2, 3] : Fin 3 → Fin S1x64x512x512.rank)
  concatenates_S1x64x512x512_S1x64x512x512_S2x64x512x512_d0 : Shape.Concatenates [S1x64x512x512, S1x64x512x512] S2x64x512x512 0
  dot_S64x512x128_S64x512x128_S64x512x512_2_2_1_1_0_0_wf : DotDims.WF S64x512x128 S64x512x128 S64x512x512 [2] [2] [1] [1] [0] [0]

variable [Facts₀]

def dot_S64x512x128_S64x512x128_S64x512x512_2_2_1_1_0_0 : DotDims S64x512x128 S64x512x128 S64x512x512 where
  lhsContracting := [2]
  rhsContracting := [2]
  lhsNonContracting := [1]
  rhsNonContracting := [1]
  lhsBatch := [0]
  rhsBatch := [0]
  wf := dot_S64x512x128_S64x512x128_S64x512x512_2_2_1_1_0_0_wf

class Facts : Prop extends Facts₀ where

variable [Facts]
-- ==== Proof.Adjacency.lean ====
/-
  The two adjacency matrices of one batch entry, as functions on the extended reals.

  A batch entry has 512 nodes; node `p` carries a feature row `f p` of 128 numbers and a planar position `g p`
  of 2 numbers. From these:

  * the rows are normalised — row `p` divided by `max (sqrt (∑ₖ f p k ²)) ε` — and the cosine similarity of nodes
    `p`, `q` is the inner product `∑ₖ` of their normalised rows;
  * the squared distance of `p`, `q` is `∑ₐ (g p a − g q a)²`; the indicator of the diagonal (`1` when `p = q`,
    else `0`) is added before the square root, so that the distance on the diagonal is `sqrt 1`;
  * the first matrix is `cosine · exp (−distance / 1) · (1 − diagonal)`, the second
    `(1 if distance < 1 else 0) · (1 − diagonal)`.

  `whole X C` lays the two matrices of all 64 batch entries out as one array of shape [2, 64, 512, 512]: entry
  `(s, b, p, q)` is matrix `s` of batch entry `b` at `(p, q)`.

  Nothing here asks the inputs to be finite: both programs apply the same operations in the same order to the same
  entries, so the equality to be shown holds at every extended real.
-/
import Idealize.ShloMosaic.PureOps.Ideal
import Idealize.ShloMosaic.PureOps.Ideal.Laws
import Idealize.ShloMosaic.Lib.ValueIdx

noncomputable section

namespace Cert.Adjacency

open Idealize.ShloMosaic Idealize.ShloMosaic.ValueIdx

/-- The floor under a row's norm. -/
def eps : EReal := Ideal.ofBits .f32 0x322BCC77#32

/-- The number one, as both programs spell it. -/
def one : EReal := Ideal.ofBits .f32 0x3F800000#32

/-- The number zero, as both programs spell it. -/
def zero : EReal := Ideal.ofBits .f32 0x00000000#32

/-- The sum of the squares of row `p`. -/
def sumSq (f : Fin 512 → Fin 128 → EReal) (p : Fin 512) : EReal := ∑ k : Fin 128, f p k * f p k

/-- The norm row `p` is divided by: its Euclidean norm, but at least `eps`. -/
def rowNorm (f : Fin 512 → Fin 128 → EReal) (p : Fin 512) : EReal := max (Ideal.sqrt (sumSq f p)) eps

/-- Row `p` normalised, at column `k`. -/
def unitRow (f : Fin 512 → Fin 128 → EReal) (p : Fin 512) (k : Fin 128) : EReal := Ideal.div (f p k) (rowNorm f p)

/-- The cosine similarity of nodes `p` and `q`: the inner product of their normalised rows. -/
def cosine (f : Fin 512 → Fin 128 → EReal) (p q : Fin 512) : EReal := ∑ k : Fin 128, unitRow f p k * unitRow f q k

/-- Whether `p` and `q` are the same node, as the one-bit result of comparing their 32-bit numbers. -/
def sameNode (p q : Fin 512) : BitVec 1 := IntOp.cmpi .eq (BitVec.ofNat 32 p.val) (BitVec.ofNat 32 q.val)

/-- The indicator of the diagonal: that bit as a number. -/
def diag (p q : Fin 512) : EReal := (((sameNode p q).toNat : ℝ) : EReal)

/-- One off the diagonal, zero on it. -/
def offDiag (p q : Fin 512) : EReal := one - diag p q

/-- The squared Euclidean distance of the positions of `p` and `q`. -/
def sqDist (g : Fin 512 → Fin 2 → EReal) (p q : Fin 512) : EReal := ∑ a : Fin 2, (g p a - g q a) * (g p a - g q a)

/-- Their distance, the diagonal's indicator added under the root. -/
def dist (g : Fin 512 → Fin 2 → EReal) (p q : Fin 512) : EReal := Ideal.sqrt (sqDist g p q + diag p q)

/-- `exp (−distance / 1)`. -/
def decay (g : Fin 512 → Fin 2 → EReal) (p q : Fin 512) : EReal := Ideal.exp (Ideal.div (-(dist g p q)) one)

/-- The first matrix: similarity damped by distance, the diagonal removed. -/
def weighted (f : Fin 512 → Fin 128 → EReal) (g : Fin 512 → Fin 2 → EReal) (p q : Fin 512) : EReal :=
  cosine f p q * decay g p q * offDiag p q

/-- The second matrix: nodes closer than one, the diagonal removed. -/
def near (g : Fin 512 → Fin 2 → EReal) (p q : Fin 512) : EReal :=
  Scalar.select (Ideal.cmp .olt (dist g p q) one) one zero * offDiag p q

/-- The feature rows of batch entry `b`. -/
def feaOf (X : (⟨3, ![64, 512, 128]⟩ : Shape).Idx → EReal) (b : Fin 64) : Fin 512 → Fin 128 → EReal :=
  fun p k => X (ix3 b p k)

/-- The positions of batch entry `b`. -/
def posOf (C : (⟨3, ![64, 512, 2]⟩ : Shape).Idx → EReal) (b : Fin 64) : Fin 512 → Fin 2 → EReal :=
  fun p a => C (ix3 b p a)

/-- Both matrices of every batch entry as one array: entry `(s, b, p, q)` is matrix `s` of entry `b` at `(p, q)`. -/
def whole (X : (⟨3, ![64, 512, 128]⟩ : Shape).Idx → EReal) (C : (⟨3, ![64, 512, 2]⟩ : Shape).Idx → EReal) :
    (⟨4, ![2, 64, 512, 512]⟩ : Shape).Idx → EReal := fun i =>
  if (i 0).val = 0 then weighted (feaOf X (i 1)) (posOf C (i 1)) (i 2) (i 3) else near (posOf C (i 1)) (i 2) (i 3)

/-- Both matrices of ONE batch entry, from its block of feature rows and its block of positions (each with a leading unit
    axis), laid out as the [2, 1, 512, 512] block a grid point writes: entry `(s, 0, p, q)` is matrix `s` at `(p, q)`. -/
def block (x0 : (⟨3, ![1, 512, 128]⟩ : Shape).Idx → EReal) (x1 : (⟨3, ![1, 512, 2]⟩ : Shape).Idx → EReal) :
    (⟨4, ![2, 1, 512, 512]⟩ : Shape).Idx → EReal := fun y =>
  if (y 0).val = 0 then weighted (fun p k => x0 (ix3 (0 : Fin 1) p k)) (fun p a => x1 (ix3 (0 : Fin 1) p a)) (y 2) (y 3)
  else near (fun p a => x1 (ix3 (0 : Fin 1) p a)) (y 2) (y 3)

theorem weighted_congr {f f' : Fin 512 → Fin 128 → EReal} {g g' : Fin 512 → Fin 2 → EReal} {p p' q q' : Fin 512}
    (hf : f = f') (hg : g = g') (hp : p = p') (hq : q = q') : weighted f g p q = weighted f' g' p' q' := by
  subst hf hg hp hq; rfl

theorem near_congr {g g' : Fin 512 → Fin 2 → EReal} {p p' q q' : Fin 512}
    (hg : g = g') (hp : p = p') (hq : q = q') : near g p q = near g' p' q' := by
  subst hg hp hq; rfl

/-- The block of batch entry `b` IS the corresponding part of `whole`: if the two input blocks are the rows of batch entry
    `i 1` of the arrays, and the array index `i` has the block index `y`'s matrix, row and column coordinates, then the
    block at `y` is `whole` at `i`. -/
theorem block_eq_whole (X : (⟨3, ![64, 512, 128]⟩ : Shape).Idx → EReal) (C : (⟨3, ![64, 512, 2]⟩ : Shape).Idx → EReal)
    (x0 : (⟨3, ![1, 512, 128]⟩ : Shape).Idx → EReal) (x1 : (⟨3, ![1, 512, 2]⟩ : Shape).Idx → EReal)
    (y : (⟨4, ![2, 1, 512, 512]⟩ : Shape).Idx) (i : (⟨4, ![2, 64, 512, 512]⟩ : Shape).Idx)
    (h0 : (i 0).val = (y 0).val) (h2 : (i 2).val = (y 2).val) (h3 : (i 3).val = (y 3).val)
    (hx0 : ∀ (p : Fin 512) (k : Fin 128), x0 (ix3 (0 : Fin 1) p k) = X (ix3 (i 1) p k))
    (hx1 : ∀ (p : Fin 512) (a : Fin 2), x1 (ix3 (0 : Fin 1) p a) = C (ix3 (i 1) p a)) :
    block x0 x1 y = whole X C i := by
  have hf : (fun (p : Fin 512) (k : Fin 128) => x0 (ix3 (0 : Fin 1) p k)) = feaOf X (i 1) :=
    funext fun p => funext fun k => hx0 p k
  have hg : (fun (p : Fin 512) (a : Fin 2) => x1 (ix3 (0 : Fin 1) p a)) = posOf C (i 1) :=
    funext fun p => funext fun a => hx1 p a
  have e2 : (y 2 : Fin 512) = (i 2 : Fin 512) := Fin.ext h2.symm
  have e3 : (y 3 : Fin 512) = (i 3 : Fin 512) := Fin.ext h3.symm
  unfold block whole
  by_cases hy : (y 0).val = 0
  · rw [if_pos hy, if_pos (h0.trans hy)]
    exact weighted_congr hf hg e2 e3
  · rw [if_neg hy, if_neg (fun h => hy (h0.symm.trans h))]
    exact near_congr hg e2 e3

/-- A one-bit word widened to 32 bits without sign reads, as a signed integer, as the bit itself. -/
theorem toInt_setWidth_bit (b : BitVec 1) : (b.setWidth 32).toInt = (b.toNat : Int) := by
  by_cases h : b = 1#1
  · subst h; rfl
  · rw [eq_zero_of_ne_one h]; rfl

/-- Zero minus `x` is `−x`, at every extended real. -/
theorem zero_sub_eq (x : EReal) : zero - x = -x := by
  unfold zero; rw [Ideal.ofBits_zero_f32, zero_sub]

/-- Zero plus `x` is `x`. -/
theorem zero_add_eq (x : EReal) : zero + x = x := by
  unfold zero; rw [Ideal.ofBits_zero_f32, zero_add]

end Cert.Adjacency

end
-- ==== Proof.RefAdjacency.lean ====
/-
  The reference computes `Adjacency.whole`.

  The reference's program is a straight line of whole-array operations over all 64 batch entries at once. Read one
  operation at a time at an index, each intermediate array is the corresponding quantity of `Adjacency` for the
  batch entry the index names: the row norms, the normalised rows, their batched inner products, the pairwise squared
  distances, the diagonal's indicator (built from two index arrays, an integer zero added to the first), the distance,
  the decay, and the two products. The result stacks the two [64, 512, 512] arrays along a new leading axis of extent
  two, so entry `(0, b, p, q)` reads the first and `(1, b, p, q)` the second.

  The two sums the reference takes start from its literal zero; `0 + x = x` on the extended reals removes it.
-/
import proofs.«136676_j88038239633881_1_alg».proof.Proof.Gen.ReferenceIdeal.Read
import proofs.«136676_j88038239633881_1_alg».proof.Proof.Adjacency
import Idealize.ShloMosaic.Lib.Pipeline.Value
import Idealize.ShloMosaic.Lib.ValueIdx
import Idealize.ShloMosaic.PureOps.Ideal.Laws

noncomputable section

namespace Cert.RefAdjacency

open Cert.ReferenceIdeal Cert.ReferenceIdeal.Gen Cert.ReferenceIdeal.Read
open Idealize.ShloMosaic Idealize.ShloMosaic.ValueIdx Cert.Adjacency

variable (X : (⟨S64x512x128, .f32⟩ : BufTy).Contents (Elt Ideal)) (C : (⟨S64x512x2, .f32⟩ : BufTy).Contents (Elt Ideal))

/-- The row sums of squares: entry `(b, p)` is the sum over the 128 columns of row `p` of batch entry `b`. -/
theorem ref_sumSq (i : S64x512.Idx) : val_main_call0_v1 (F := Ideal) X i = sumSq (feaOf X (i 0)) (i 1) := by
  rw [val_main_call0_v1_apply, val_main_call0_cst_apply]
  refine (zero_add_eq _).trans ?_
  refine Finset.sum_congr rfl fun k _ => ?_
  rw [val_main_call0_v0_apply]
  have e : idx_main_call0_v1 i k = ix3 (i 0) (i 1) k :=
    funext fun a => Fin.ext (by match a with | ⟨0, _⟩ => rfl | ⟨1, _⟩ => rfl | ⟨2, _⟩ => rfl)
  rw [e]
  rfl

/-- The norms the rows are divided by, kept as a column. -/
theorem ref_rowNorm (i : S64x512x1.Idx) : val_main_v2 (F := Ideal) X i = rowNorm (feaOf X (i 0)) (i 1) := by
  rw [val_main_v2_apply, val_main_v0_apply, val_main_call0_v2_apply, ref_sumSq, val_main_v1_apply, val_main_cst_apply]
  rfl

/-- The normalised rows. -/
theorem ref_unitRow (i : S64x512x128.Idx) : val_main_v4 (F := Ideal) X i = unitRow (feaOf X (i 0)) (i 1) (i 2) := by
  rw [val_main_v4_apply, val_main_v3_apply, ref_rowNorm]
  exact congrArg (fun z => Ideal.div (X z) (rowNorm (feaOf X (i 0)) (i 1))) (eq_ix3 i)

/-- The batched product: entry `(b, p, q)` is the inner product of normalised rows `p` and `q` of batch entry `b`. -/
theorem ref_cosine (i : S64x512x512.Idx) : val_main_v5 (F := Ideal) X i = cosine (feaOf X (i 0)) (i 1) (i 2) := by
  rw [val_main_v5_apply]
  refine Finset.sum_congr rfl fun k _ => ?_
  rw [ref_unitRow, ref_unitRow]
  rfl

/-- The diagonal's indicator: the row index (plus an integer zero) compared with the column index, as a number. -/
theorem ref_diag (j : S512x512.Idx) : val_main_v18 (F := Ideal) j = diag (j 0) (j 1) := by
  rw [val_main_v18_apply, val_main_v17_apply, val_main_v16_apply, val_main_v13_apply, val_main_v15_apply, val_main_c_apply,
    val_main_v14_apply]
  rw [show IntOp.addi (BitVec.ofNat 32 (j 0).val) 0#32 = BitVec.ofNat 32 (j 0).val from BitVec.add_zero _]
  rfl

/-- One minus the indicator. -/
theorem ref_offDiag (j : S512x512.Idx) : val_main_v24 (F := Ideal) j = offDiag (j 0) (j 1) := by
  rw [val_main_v24_apply, val_main_v23_apply, val_main_cst_1_apply, ref_diag]
  rfl

/-- The pairwise squared distances: both positions broadcast to [64, 512, 512, 2], subtracted, squared, summed over the
    last axis. -/
theorem ref_sqDist (i : S64x512x512.Idx) : val_main_v12 (F := Ideal) C i = sqDist (posOf C (i 0)) (i 1) (i 2) := by
  rw [val_main_v12_apply, val_main_cst_0_apply]
  refine (zero_add_eq _).trans ?_
  refine Finset.sum_congr rfl fun a _ => ?_
  rw [val_main_v11_apply, val_main_v10_apply, val_main_v8_apply, val_main_v6_apply, val_main_v9_apply, val_main_v7_apply]
  have e1 : idx_main_v6 (idx_main_v8 (idx_main_v12 i a)) = ix3 (i 0) (i 1) a :=
    funext fun d => Fin.ext (by match d with | ⟨0, _⟩ => rfl | ⟨1, _⟩ => rfl | ⟨2, _⟩ => rfl)
  have e2 : idx_main_v7 (idx_main_v9 (idx_main_v12 i a)) = ix3 (i 0) (i 2) a :=
    funext fun d => Fin.ext (by match d with | ⟨0, _⟩ => rfl | ⟨1, _⟩ => rfl | ⟨2, _⟩ => rfl)
  rw [e1, e2]
  rfl

/-- The distance. -/
theorem ref_dist (i : S64x512x512.Idx) : val_main_v22 (F := Ideal) C i = dist (posOf C (i 0)) (i 1) (i 2) := by
  rw [val_main_v22_apply, val_main_v21_apply, ref_sqDist, val_main_v20_apply, val_main_v19_apply, ref_diag]
  rfl

/-- The decay: the distance negated, divided by one, exponentiated. -/
theorem ref_decay (i : S64x512x512.Idx) : val_main_v28 (F := Ideal) C i = decay (posOf C (i 0)) (i 1) (i 2) := by
  rw [val_main_v28_apply, val_main_v27_apply, val_main_v25_apply, ref_dist, val_main_v26_apply, val_main_cst_2_apply]
  rfl

/-- The first matrix of every batch entry. -/
theorem ref_weighted (i : S64x512x512.Idx) :
    val_main_v32 (F := Ideal) X C i = weighted (feaOf X (i 0)) (posOf C (i 0)) (i 1) (i 2) := by
  rw [val_main_v32_apply, val_main_v29_apply, ref_cosine, ref_decay, val_main_v31_apply, val_main_v30_apply, ref_offDiag]
  rfl

/-- The second matrix of every batch entry. -/
theorem ref_near (i : S64x512x512.Idx) : val_main_v39 (F := Ideal) C i = near (posOf C (i 0)) (i 1) (i 2) := by
  rw [val_main_v39_apply, val_main_v36_apply, val_main_v35_apply, val_main_v34_apply, ref_dist, val_main_v33_apply,
    val_main_cst_3_apply, val_main_call1_v0_apply, val_main_cst_4_apply, val_main_call1_v1_apply, val_main_cst_5_apply,
    val_main_v38_apply, val_main_v37_apply, ref_offDiag]
  rfl

/-- The two stacked: the reference's result is `Adjacency.whole` of its arguments. -/
theorem ref_whole : val_main_v42 (F := Ideal) X C = whole X C := by
  funext i
  unfold val_main_v42 whole
  by_cases h : (i 0).val = 0
  · rw [if_pos h]
    rw [concatenate_pair_apply_left (s₁ := S1x64x512x512) (s₂ := S1x64x512x512) (0 : Fin 4) _ _ _ i rfl
      (ix4 (0 : Fin 1) (i 1) (i 2) (i 3)) (fun b => by
      match b with
      | ⟨0, _⟩ => exact h.symm
      | ⟨1, _⟩ => rfl
      | ⟨2, _⟩ => rfl
      | ⟨3, _⟩ => rfl)]
    rw [val_main_v40_apply, ref_weighted]
    rfl
  · have hlt : (i 0).val < 2 := (i 0).isLt
    have h1 : (i 0).val = 1 := by omega
    rw [if_neg h]
    rw [concatenate_pair_apply_right (s₁ := S1x64x512x512) (s₂ := S1x64x512x512) (0 : Fin 4) _ _ _ i rfl rfl
      (ix4 (0 : Fin 1) (i 1) (i 2) (i 3)) (fun b hb => by
      match b with
      | ⟨0, _⟩ => exact absurd rfl hb
      | ⟨1, _⟩ => rfl
      | ⟨2, _⟩ => rfl
      | ⟨3, _⟩ => rfl) (by show 0 + 1 = (i 0).val; omega)]
    rw [val_main_v41_apply, ref_near]
    rfl

end Cert.RefAdjacency

end
-- ==== Proof.LibColumnForms.lean ====
/-
  Two layout operations on a COLUMN, read at an index given by its coordinates.

  A row-wise reduction with `keepdims` leaves its result as a column: a vector of `a` entries is cast to the
  shape `[a, 1]`, and the column is then broadcast along the second axis to `[a, b]`. Each of the two steps
  reads, at an index of its result, the operand at one index: the cast at `(i, u)` reads entry `i` (the unit
  coordinate `u` is `0` and carries nothing), and the broadcast at `(p, c)` reads the column's entry `(p, 0)`
  (the column is constant along the second axis). General in the extents and in the element type.
-/
import Idealize.ShloMosaic.Lib.Pipeline.Value
import Idealize.ShloMosaic.Lib.ValueIdx

namespace Cert.ColumnForms

open Idealize.ShloMosaic Idealize.ShloMosaic.ValueIdx

variable {α : Type}

/-- A vector of `a` entries cast to the column shape `[a, 1]` reads, at `(i, u)`, entry `i`: both indices have
    row-major position `i`, since the unit coordinate is `0`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `(p, 0)`: the first axis is
    kept (or has extent one, where `p` is `0` anyway), the second is the column's unit axis. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnForms
-- ==== Proof.KernelAdjacency.lean ====
/-
  One grid point of the kernel computes the two matrices of `Adjacency` for the batch entry it is handed.

  The body sees one batch entry: a [1, 512, 128] block of feature rows and a [1, 512, 2] block of positions, each cast to
  a matrix by dropping the leading unit axis. Its arithmetic, read at an entry `(p, q)` of the 512 × 512 result:

  * the row sums of squares are a sum along the second axis, kept as a column, rooted, floored at `ε`, broadcast back
    along the rows, and divided into the rows: entry `(p, k)` of the normalised matrix is `unitRow p k`;
  * the matrix product of the normalised matrix with its own transpose, into a zero accumulator, is at `(p, q)` the sum
    over `k` of `unitRow p k · unitRow q k` — the transpose read at `(k, q)` is the matrix at `(q, k)`;
  * the positions are cast to [512, 1, 2] and to [1, 512, 2] and both broadcast to [512, 512, 2], so their difference at
    `(p, q, a)` is `g p a − g q a`; squared and summed along the last axis it is the squared distance;
  * the diagonal's indicator is the comparison of the row and column index arrays, widened to 32 bits and converted as a
    signed integer — a one-bit word widened without sign is the same number signed or unsigned;
  * the negation is written `0 − x`, which is `−x` at every extended real.
-/
import proofs.«136676_j88038239633881_1_alg».proof.Proof.Gen.KernelIdeal.Skeleton
import proofs.«136676_j88038239633881_1_alg».proof.Proof.Adjacency
import proofs.«136676_j88038239633881_1_alg».proof.Proof.LibColumnForms
import Idealize.ShloMosaic.Lib.Pipeline.Value
import Idealize.ShloMosaic.Lib.ValueIdx
import Idealize.ShloMosaic.Lib.ValueLayout
import Idealize.ShloMosaic.PureOps.Ideal.Laws

noncomputable section

namespace Cert.KernelAdjacency

open Cert.KernelIdeal Cert.KernelIdeal.Gen
open Idealize.ShloMosaic Idealize.ShloMosaic.ValueIdx Cert.Adjacency Cert.ColumnForms

/-! ## The matrix product's operand indices -/

theorem lhs_0 (j : S512x512.Idx) (q : dot_S512x128_S128x512_S512x512_1_0_0_1_n_n.contr.Idx) :
    (dot_S512x128_S128x512_S512x512_1_0_0_1_n_n.lhsIdx j q 0).val = (j 0).val := by
  unfold DotDims.lhsIdx
  rw [dif_neg (show ¬(0 : Fin S512x128.rank) ∈ dot_S512x128_S128x512_S512x512_1_0_0_1_n_n.lhsBatch by decide),
    dif_pos (show (0 : Fin S512x128.rank) ∈ dot_S512x128_S128x512_S512x512_1_0_0_1_n_n.lhsNonContracting by decide)]
  rfl

theorem lhs_1 (j : S512x512.Idx) (q : dot_S512x128_S128x512_S512x512_1_0_0_1_n_n.contr.Idx) :
    (dot_S512x128_S128x512_S512x512_1_0_0_1_n_n.lhsIdx j q 1).val = (q ⟨0, by decide⟩).val :=
  dot_S512x128_S128x512_S512x512_1_0_0_1_n_n.lhsIdx_val_of_single rfl j q

theorem rhs_0 (j : S512x512.Idx) (q : dot_S512x128_S128x512_S512x512_1_0_0_1_n_n.contr.Idx) :
    (dot_S512x128_S128x512_S512x512_1_0_0_1_n_n.rhsIdx j q 0).val = (q ⟨0, by decide⟩).val :=
  dot_S512x128_S128x512_S512x512_1_0_0_1_n_n.rhsIdx_val_of_single rfl j q

theorem rhs_1 (j : S512x512.Idx) (q : dot_S512x128_S128x512_S512x512_1_0_0_1_n_n.contr.Idx) :
    (dot_S512x128_S128x512_S512x512_1_0_0_1_n_n.rhsIdx j q 1).val = (j 1).val := by
  unfold DotDims.rhsIdx
  rw [dif_neg (show ¬(1 : Fin S128x512.rank) ∈ dot_S512x128_S128x512_S512x512_1_0_0_1_n_n.rhsBatch by decide),
    dif_pos (show (1 : Fin S128x512.rank) ∈ dot_S512x128_S128x512_S512x512_1_0_0_1_n_n.rhsNonContracting by decide)]
  rfl

/-! ## The steps that are not entry by entry, over variables -/

variable (v1 u : FVec Ideal S512x128 .f32) (v3 : FVec Ideal S512x2 .f32) (w : FVec Ideal S512x512x2 .f32)

/-- A sum along the second axis of a 512 × 128 matrix, at row `p`. -/
theorem rowSum_apply (s : FVec Ideal S512x128 .f32) (p : Fin 512) :
    multiReduction .add [1] S512 s 0x00000000#32 reduces_S512x128_S512 (.inl rfl) rfl (ix1 p) = ∑ k : Fin 128, s (ix2 p k) := by
  refine (Ideal.multiReduction_add_single s 0x00000000#32 reduces_S512x128_S512 (.inl rfl) rfl (ix1 p)).trans ?_
  refine Finset.sum_congr rfl fun (k : Fin 128) _ => ?_
  exact congrArg s (funext fun a => Fin.ext (by match a with | ⟨0, _⟩ => rfl | ⟨1, _⟩ => rfl))

/-- A sum along the last axis of a 512 × 512 × 2 array, at `(p, q)`. -/
theorem lastSum_apply (p q : Fin 512) :
    multiReduction .add [2] S512x512 w 0x00000000#32 reduces_S512x512x2_S512x512 (.inl rfl) rfl (ix2 p q)
      = ∑ a : Fin 2, w (ix3 p q a) := by
  refine (Ideal.multiReduction_add_single w 0x00000000#32 reduces_S512x512x2_S512x512 (.inl rfl) rfl (ix2 p q)).trans ?_
  refine Finset.sum_congr rfl fun (a : Fin 2) _ => ?_
  exact congrArg w (funext fun d => Fin.ext (by match d with | ⟨0, _⟩ => rfl | ⟨1, _⟩ => rfl | ⟨2, _⟩ => rfl))

/-- The rows divided by their floored norms, at `(p, k)`. -/
theorem unit_apply (p : Fin 512) (k : Fin 128) :
    divf v1 (broadcastTo S512x128 (maximumf (sqrt (shapeCast S512x1
        (multiReduction .add [1] S512 (mulf v1 v1) 0x00000000#32 reduces_S512x128_S512 (.inl rfl) rfl) shapeCasts_S512_S512x1))
        (broadcast S512x1 (Scalar.ofBits .f32 0x322BCC77#32))) broadcasts_S512x1_S512x128) (ix2 p k)
      = unitRow (fun p k => v1 (ix2 p k)) p k := by
  rw [divf_apply, broadcastTo_a1_ab_apply, maximumf_apply]
  show Ideal.div (v1 (ix2 p k)) (max (Ideal.sqrt (shapeCast S512x1 _ shapeCasts_S512_S512x1 (ix2 p (0 : Fin 1)))) _) = _
  rw [shapeCast_a_a1_apply, rowSum_apply]
  rfl

/-- A 512 × 128 matrix times its own transpose, into a zero accumulator, at `(p, q)`: the inner product of rows `p`, `q`. -/
theorem gram_apply (p q : Fin 512) :
    matmul dot_S512x128_S128x512_S512x512_1_0_0_1_n_n none u
        (transpose S128x512 [1, 0] u transposes_S512x128_p1_0_S128x512) (constant S512x512 .f32 0x00000000#32) (ix2 p q)
      = ∑ k : Fin 128, u (ix2 p k) * u (ix2 q k) := by
  simp only [matmul]
  rw [Ideal.matmul_constant_zero_apply,
    ← Equiv.sum_comp (contrEquiv1 dot_S512x128_S128x512_S512x512_1_0_0_1_n_n 128 rfl rfl).symm]
  refine Finset.sum_congr rfl fun k _ => ?_
  have hk := contrEquiv1_symm_val dot_S512x128_S128x512_S512x512_1_0_0_1_n_n 128 rfl rfl k
  have el : dot_S512x128_S128x512_S512x512_1_0_0_1_n_n.lhsIdx (ix2 p q)
      ((contrEquiv1 dot_S512x128_S128x512_S512x512_1_0_0_1_n_n 128 rfl rfl).symm k) = ix2 p k :=
    funext fun a => Fin.ext (by
      match a with
      | ⟨0, _⟩ => exact lhs_0 _ _
      | ⟨1, _⟩ => exact (lhs_1 _ _).trans hk)
  have er : dot_S512x128_S128x512_S512x512_1_0_0_1_n_n.rhsIdx (ix2 p q)
      ((contrEquiv1 dot_S512x128_S128x512_S512x512_1_0_0_1_n_n 128 rfl rfl).symm k) = ix2 k q :=
    funext fun a => Fin.ext (by
      match a with
      | ⟨0, _⟩ => exact (rhs_0 _ _).trans hk
      | ⟨1, _⟩ => exact rhs_1 _ _)
  rw [el, er, transpose_ix2_apply]

/-- The matrix of normalised rows. -/
abbrev normalised : FVec Ideal S512x128 .f32 :=
  divf v1 (broadcastTo S512x128 (maximumf (sqrt (shapeCast S512x1
    (multiReduction .add [1] S512 (mulf v1 v1) 0x00000000#32 reduces_S512x128_S512 (.inl rfl) rfl) shapeCasts_S512_S512x1))
    (broadcast S512x1 (Scalar.ofBits .f32 0x322BCC77#32))) broadcasts_S512x1_S512x128)

/-- The product of the normalised matrix with its transpose, at `(p, q)`: the cosine similarity of rows `p`, `q`. -/
theorem cosine_apply (p q : Fin 512) :
    matmul dot_S512x128_S128x512_S512x512_1_0_0_1_n_n none (normalised v1)
        (transpose S128x512 [1, 0] (normalised v1) transposes_S512x128_p1_0_S128x512) (constant S512x512 .f32 0x00000000#32) (ix2 p q)
      = cosine (fun p k => v1 (ix2 p k)) p q := by
  rw [gram_apply]
  refine Finset.sum_congr rfl fun k _ => ?_
  exact congrArg₂ (· * ·) (unit_apply v1 p k) (unit_apply v1 q k)

/-- The positions against themselves: cast to a column of rows and to a row of rows, both broadcast to 512 × 512 × 2,
    subtracted — at `(p, q, a)` the difference of positions `p` and `q` in coordinate `a`. -/
theorem pairDiff_apply (p q : Fin 512) (a : Fin 2) :
    subf (broadcastTo S512x512x2 (shapeCast S512x1x2 v3 shapeCasts_S512x2_S512x1x2) broadcasts_S512x1x2_S512x512x2)
        (broadcastTo S512x512x2 (shapeCast S1x512x2 v3 shapeCasts_S512x2_S1x512x2) broadcasts_S1x512x2_S512x512x2) (ix3 p q a)
      = v3 (ix2 p a) - v3 (ix2 q a) := by
  rw [subf_apply]
  have e1 : broadcastTo S512x512x2 (shapeCast S512x1x2 v3 shapeCasts_S512x2_S512x1x2) broadcasts_S512x1x2_S512x512x2 (ix3 p q a)
      = v3 (ix2 p a) := by
    refine (broadcastTo_apply _ broadcasts_S512x1x2_S512x512x2 (ix3 p q a) (ix3 p (0 : Fin 1) a) fun d => ?_).trans ?_
    · match d with
      | ⟨0, _⟩ => show p.val = if (512 : Nat) = 1 then 0 else p.val; rw [if_neg (by decide)]
      | ⟨1, _⟩ => show (0 : Nat) = if (1 : Nat) = 1 then 0 else q.val; rw [if_pos rfl]
      | ⟨2, _⟩ => show a.val = if (2 : Nat) = 1 then 0 else a.val; rw [if_neg (by decide)]
    · refine shapeCast_apply v3 shapeCasts_S512x2_S512x1x2 (ix3 p (0 : Fin 1) a) (ix2 p a) ?_
      rw [Shape.rowMajor_val_two, Shape.rowMajor_val_three]
      show p.val * 2 + a.val = (p.val * 1 + 0) * 2 + a.val
      omega
  have e2 : broadcastTo S512x512x2 (shapeCast S1x512x2 v3 shapeCasts_S512x2_S1x512x2) broadcasts_S1x512x2_S512x512x2 (ix3 p q a)
      = v3 (ix2 q a) := by
    refine (broadcastTo_apply _ broadcasts_S1x512x2_S512x512x2 (ix3 p q a) (ix3 (0 : Fin 1) q a) fun d => ?_).trans ?_
    · match d with
      | ⟨0, _⟩ => show (0 : Nat) = if (1 : Nat) = 1 then 0 else p.val; rw [if_pos rfl]
      | ⟨1, _⟩ => show q.val = if (512 : Nat) = 1 then 0 else q.val; rw [if_neg (by decide)]
      | ⟨2, _⟩ => show a.val = if (2 : Nat) = 1 then 0 else a.val; rw [if_neg (by decide)]
    · exact shapeCast_ab_1ab_apply v3 shapeCasts_S512x2_S1x512x2 (0 : Fin 1) q a
  rw [e1, e2]

/-! ## The payloads at an entry -/

/-- The diagonal's indicator. -/
theorem pay_diag (p q : Fin 512) : k0_pay3 (F := Ideal) (ix2 p q) = diag p q := by
  dsimp only [k0_pay3]
  rw [sitofp_apply, extui_apply]
  show FloatOps.sitofp (F := Ideal) .f32 ((IntOp.cmpi .eq (iota .tc S512x512 32 [0] iota_S512x512_d0_w32 (ix2 p q))
    (iota .tc S512x512 32 [1] iota_S512x512_d1_w32 (ix2 p q))).setWidth 32) = _
  rw [iota_single_apply, iota_single_apply]
  show ((((sameNode p q).setWidth 32).toInt : ℝ) : EReal) = _
  rw [toInt_setWidth_bit]
  unfold diag
  norm_cast

/-- One minus it. -/
theorem pay_offDiag (p q : Fin 512) : k0_pay4 (F := Ideal) (ix2 p q) = offDiag p q := by
  dsimp only [k0_pay4]
  rw [subf_apply, pay_diag]
  rfl

/-- The distance. -/
theorem pay_dist (x1 : Vec Ideal S1x512x2 .f32) (p q : Fin 512) :
    k0_pay5 (F := Ideal) x1 (ix2 p q) = dist (fun p a => x1 (ix3 (0 : Fin 1) p a)) p q := by
  dsimp only [k0_pay5]
  show Ideal.sqrt (_ + k0_pay3 (F := Ideal) (ix2 p q)) = _
  rw [lastSum_apply, pay_diag]
  simp only [mulf_apply, pairDiff_apply, shapeCast_1ab_ab_apply]
  rfl

/-- The first matrix. -/
theorem pay_weighted (x0 : Vec Ideal S1x512x128 .f32) (x1 : Vec Ideal S1x512x2 .f32) (p q : Fin 512) :
    k0_pay6 (F := Ideal) x0 x1 (ix2 p q)
      = weighted (fun p k => x0 (ix3 (0 : Fin 1) p k)) (fun p a => x1 (ix3 (0 : Fin 1) p a)) p q := by
  dsimp only [k0_pay6]
  rw [mulf_apply, mulf_apply, cosine_apply, pay_offDiag]
  show _ * Ideal.exp (Ideal.div (zero - k0_pay5 (F := Ideal) x1 (ix2 p q)) one) * _ = _
  rw [pay_dist, zero_sub_eq]
  simp only [shapeCast_1ab_ab_apply]
  rfl

/-- The second matrix. -/
theorem pay_near (x1 : Vec Ideal S1x512x2 .f32) (p q : Fin 512) :
    k0_pay7 (F := Ideal) x1 (ix2 p q) = near (fun p a => x1 (ix3 (0 : Fin 1) p a)) p q := by
  dsimp only [k0_pay7]
  rw [mulf_apply, pay_offDiag, select_apply, cmpf_apply, pay_dist]
  rfl

/-- A store's value: the matrix cast to [1, 1, 512, 512], at `(0, 0, p, q)`. -/
theorem pay_store1 (v : FVec Ideal S512x512 .f32) (y : S1x1x512x512.Idx) :
    k0_pay1 (F := Ideal) v y = v (ix2 (y 2) (y 3)) := by
  dsimp only [k0_pay1]
  refine shapeCast_apply v shapeCasts_S512x512_S1x1x512x512 y (ix2 (y 2) (y 3)) ?_
  have h0 : (y 0).val = 0 := by have : (y 0).val < 1 := (y 0).isLt; omega
  have h1 : (y 1).val = 0 := by have : (y 1).val < 1 := (y 1).isLt; omega
  rw [Shape.rowMajor_val_two, Shape.rowMajor_val_four]
  show (y 2).val * 512 + (y 3).val = (((y 0).val * 1 + (y 1).val) * 512 + (y 2).val) * 512 + (y 3).val
  rw [h0, h1]
  omega

theorem pay_store2 (v : FVec Ideal S512x512 .f32) (y : S1x1x512x512.Idx) :
    k0_pay2 (F := Ideal) v y = v (ix2 (y 2) (y 3)) := by
  dsimp only [k0_pay2]
  refine shapeCast_apply v shapeCasts_S512x512_S1x1x512x512 y (ix2 (y 2) (y 3)) ?_
  have h0 : (y 0).val = 0 := by have : (y 0).val < 1 := (y 0).isLt; omega
  have h1 : (y 1).val = 0 := by have : (y 1).val < 1 := (y 1).isLt; omega
  rw [Shape.rowMajor_val_two, Shape.rowMajor_val_four]
  show (y 2).val * 512 + (y 3).val = (((y 0).val * 1 + (y 1).val) * 512 + (y 2).val) * 512 + (y 3).val
  rw [h0, h1]
  omega

end Cert.KernelAdjacency

end
-- ==== Proof.KernelWhole.lean ====
/-
  The kernel's result array is `Adjacency.whole` of its argument arrays.

  The grid has 64 points, one per batch entry. Point `t` is handed block `(t, 0, 0)` of the features (all 512 rows and 128
  columns of batch entry `t`) and block `(t, 0, 0)` of the positions, and writes back block `(0, t, 0, 0)` of the result: both
  matrices of batch entry `t`. Its body stores the first matrix at offset 0 and the second at offset 1 of the block's first
  axis; the two stores tile the block, so the block after the body is `Adjacency.block` of the two input blocks. Read through
  the windows, that block is the part of `Adjacency.whole` at batch entry `t`. The 64 blocks cover the result array — the
  block holding entry `(s, b, p, q)` is point `b`'s — so the array ends holding `whole`.
-/
import proofs.«136676_j88038239633881_1_alg».proof.Proof.Gen.KernelIdeal.Value
import proofs.«136676_j88038239633881_1_alg».proof.Proof.KernelAdjacency
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelWhole

open Cert.KernelIdeal Cert.KernelIdeal.Gen Cert.KernelIdeal.Value
open Cert.Adjacency Cert.KernelAdjacency Idealize.ShloMosaic.ValueIdx

variable (m : (ℓ : Loc nD τ sig) → Buf (Elt Ideal) ℓ) (ρ : Dev nD → PrngReg)

theorem hz3 : (![0, 0, 0] : Fin 3 → Nat) = fun _ => 0 := funext fun a => by fin_cases a <;> rfl

/-- What the body leaves in the output block: its two stores tile the block, the first matrix under offset 0 of the
    first axis and the second under offset 1. -/
theorem out_apply (x0 : Vec Ideal S1x512x128 .f32) (x1 : Vec Ideal S1x512x2 .f32) (y : S2x1x512x512.Idx) :
    out0_2 (F := Ideal) x0 x1 y = block x0 x1 y := by
  unfold out0_2
  simp only [View.ld_unit_zero (S := S1x512x128) hz3, View.ld_unit_zero (S := S1x512x2) hz3]
  refine View.canon_apply_of_pieces (Val := Elt Ideal) (S := S2x1x512x512) (e := .f32) (block x0 x1) _ (fun pc hpc x => ?_) y
    (cover0_2 _ _ y)
  rcases List.mem_cons.mp hpc with rfl | hpc
  · refine (pay_store2 _ x).trans ((pay_near x1 _ _).trans ?_)
    have h0 : ¬((r0_3.emb x) 0).val = 0 := by show ¬(1 + 1 * (x 0).val = 0); omega
    have e2 : (x 2 : Fin 512) = ((r0_3.emb x) 2 : Fin 512) := Fin.ext (by show (x 2).val = 0 + 1 * (x 2).val; omega)
    have e3 : (x 3 : Fin 512) = ((r0_3.emb x) 3 : Fin 512) := Fin.ext (by show (x 3).val = 0 + 1 * (x 3).val; omega)
    unfold block
    rw [if_neg h0]
    exact near_congr rfl e2 e3
  · obtain rfl := List.mem_singleton.mp hpc
    refine (pay_store1 _ x).trans ((pay_weighted x0 x1 _ _).trans ?_)
    have h0 : ((r0_2.emb x) 0).val = 0 := by
      have : (x 0).val < 1 := (x 0).isLt
      show 0 + 1 * (x 0).val = 0; omega
    have e2 : (x 2 : Fin 512) = ((r0_2.emb x) 2 : Fin 512) := Fin.ext (by show (x 2).val = 0 + 1 * (x 2).val; omega)
    have e3 : (x 3 : Fin 512) = ((r0_2.emb x) 3 : Fin 512) := Fin.ext (by show (x 3).val = 0 + 1 * (x 3).val; omega)
    unfold block
    rw [if_pos h0]
    exact weighted_congr rfl rfl e2 e3

/-- The printed index maps, decided over the 64 points: the two inputs' blocks and the output's block are all at batch
    entry `t`, every other block index is zero. -/
theorem idx_facts : ∀ t : Fin cfg0.N,
    win0_0.index t (0 : Fin 3) = win0_2.index t (1 : Fin 4) ∧ win0_0.index t (1 : Fin 3) = 0 ∧ win0_0.index t (2 : Fin 3) = 0
    ∧ win0_1.index t (0 : Fin 3) = win0_2.index t (1 : Fin 4) ∧ win0_1.index t (1 : Fin 3) = 0 ∧ win0_1.index t (2 : Fin 3) = 0
    ∧ win0_2.index t (0 : Fin 4) = 0 ∧ win0_2.index t (2 : Fin 4) = 0 ∧ win0_2.index t (3 : Fin 4) = 0
    ∧ win0_2.index t (1 : Fin 4) < 64 :=
  (by decide +kernel : ∀ t : Fin grid0.N, _)

/-- Every batch entry is some point's. -/
theorem idx_onto : ∀ b : Fin 64, ∃ t : Fin cfg0.N, win0_2.index t = ![0, b.val, 0, 0] :=
  (by decide +kernel : ∀ b : Fin 64, ∃ t : Fin grid0.N, win0_2.index t = ![0, b.val, 0, 0])

/-- The features' block at point `t`, at `(0, p, k)`, is the features array at the point's batch entry. -/
theorem iblk0_apply (c : Dev nD) (t : Fin cfg0.N) (x : S1x512x128.Idx) (j : S64x512x128.Idx)
    (h0 : (j 0).val = win0_2.index t (1 : Fin 4)) (h1 : (j 1).val = (x 1).val) (h2 : (j 2).val = (x 2).val) :
    (iblk m c 0 t : Vec Ideal S1x512x128 .f32) x = (V m c main_arg0 : S64x512x128.Idx → EReal) j := by
  obtain ⟨a0, a1, a2, -⟩ := idx_facts t
  have hx : (x 0).val = 0 := by have : (x 0).val < 1 := (x 0).isLt; omega
  unfold iblk
  rw [View.read_apply]
  show V m c main_arg0 _ = V m c main_arg0 _
  congr 1
  funext a
  apply Fin.ext
  match a with
  | ⟨0, _⟩ => show win0_0.index t 0 * 1 + 1 * (x 0).val = (j 0).val; rw [a0, h0, hx]; omega
  | ⟨1, _⟩ => show win0_0.index t 1 * 512 + 1 * (x 1).val = (j 1).val; rw [a1, h1]; omega
  | ⟨2, _⟩ => show win0_0.index t 2 * 128 + 1 * (x 2).val = (j 2).val; rw [a2, h2]; omega

/-- The positions' block likewise. -/
theorem iblk1_apply (c : Dev nD) (t : Fin cfg0.N) (x : S1x512x2.Idx) (j : S64x512x2.Idx)
    (h0 : (j 0).val = win0_2.index t (1 : Fin 4)) (h1 : (j 1).val = (x 1).val) (h2 : (j 2).val = (x 2).val) :
    (iblk m c 1 t : Vec Ideal S1x512x2 .f32) x = (V m c main_arg1 : S64x512x2.Idx → EReal) j := by
  obtain ⟨-, -, -, b0, b1, b2, -⟩ := idx_facts t
  have hx : (x 0).val = 0 := by have : (x 0).val < 1 := (x 0).isLt; omega
  unfold iblk
  rw [View.read_apply]
  show V m c main_arg1 _ = V m c main_arg1 _
  congr 1
  funext a
  apply Fin.ext
  match a with
  | ⟨0, _⟩ => show win0_1.index t 0 * 1 + 1 * (x 0).val = (j 0).val; rw [b0, h0, hx]; omega
  | ⟨1, _⟩ => show win0_1.index t 1 * 512 + 1 * (x 1).val = (j 1).val; rw [b1, h1]; omega
  | ⟨2, _⟩ => show win0_1.index t 2 * 2 + 1 * (x 2).val = (j 2).val; rw [b2, h2]; omega

/-- What point `t` writes back is block `t` of `whole` of the argument arrays. -/
theorem flushed_eq (c : Dev nD) (t : Fin cfg0.N) :
    (dats m 0 c).flushed 2 t
      = ((cfg0.win 2).blk t).view.read (Elt Ideal) (whole (V m c main_arg0) (V m c main_arg1)) := by
  rw [flushed2]
  obtain ⟨-, -, -, -, -, -, o0, o2, o3, -⟩ := idx_facts t
  funext y
  show out0_2 (iblk m c 0 t) (iblk m c 1 t) y
    = whole (V m c main_arg0) (V m c main_arg1) (((cfg0.win 2).blk t).view.emb y)
  refine (out_apply (iblk m c 0 t) (iblk m c 1 t) y).trans ?_
  have hy1 : (y 1).val = 0 := by have : (y 1).val < 1 := (y 1).isLt; omega
  refine block_eq_whole (V m c main_arg0) (V m c main_arg1) _ _ y _ ?_ ?_ ?_ (fun p k => ?_) (fun p a => ?_)
  · show win0_2.index t 0 * 2 + 1 * (y 0).val = (y 0).val; rw [o0]; omega
  · show win0_2.index t 2 * 512 + 1 * (y 2).val = (y 2).val; rw [o2]; omega
  · show win0_2.index t 3 * 512 + 1 * (y 3).val = (y 3).val; rw [o3]; omega
  · refine iblk0_apply m c t _ _ ?_ rfl rfl
    show win0_2.index t 1 * 1 + 1 * (y 1).val = win0_2.index t 1; rw [hy1]; omega
  · refine iblk1_apply m c t _ _ ?_ rfl rfl
    show win0_2.index t 1 * 1 + 1 * (y 1).val = win0_2.index t 1; rw [hy1]; omega

/-- An index of the result array is in point `t`'s block iff each coordinate is in the block's range on its axis. -/
theorem mem_blk (t : Fin cfg0.N) (i : S2x64x512x512.Idx) :
    i ∈ ((cfg0.win 2).blk t).view.set ↔ ∀ a : Fin 4, win0_2.index t a * S2x1x512x512.size a ≤ (i a).val
      ∧ (i a).val < win0_2.index t a * S2x1x512x512.size a + S2x1x512x512.size a := by
  show i ∈ ((View.whole main_v0).slice (win0_2.rect t)).set ↔ _
  rw [View.set_slice_whole, Rect.mem_set_unit]
  exact Iff.rfl

/-- The blocks cover the result array: entry `(s, b, p, q)` is in the block of the point at batch entry `b`. -/
theorem cover (i : S2x64x512x512.Idx) :
    ∃ t : Fin cfg0.N, (cfg0.win 2).flush t = true ∧ i ∈ ((cfg0.win 2).blk t).view.set := by
  have hi0 : (i 0).val < 2 := (i 0).isLt
  have hi1 : (i 1).val < 64 := (i 1).isLt
  have hi2 : (i 2).val < 512 := (i 2).isLt
  have hi3 : (i 3).val < 512 := (i 3).isLt
  obtain ⟨t, ht⟩ := idx_onto ⟨(i 1).val, hi1⟩
  have q0 : win0_2.index t (0 : Fin 4) = 0 := congrFun ht 0
  have q1 : win0_2.index t (1 : Fin 4) = (i 1).val := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 2 ≤ (i 0).val ∧ (i 0).val < win0_2.index t (0 : Fin 4) * 2 + 2; omega
  | ⟨1, _⟩ => show win0_2.index t (1 : Fin 4) * 1 ≤ (i 1).val ∧ (i 1).val < win0_2.index t (1 : Fin 4) * 1 + 1; omega
  | ⟨2, _⟩ => show win0_2.index t (2 : Fin 4) * 512 ≤ (i 2).val ∧ (i 2).val < win0_2.index t (2 : Fin 4) * 512 + 512; omega
  | ⟨3, _⟩ => show win0_2.index t (3 : Fin 4) * 512 ≤ (i 3).val ∧ (i 3).val < win0_2.index t (3 : Fin 4) * 512 + 512; omega

/-- The result array after the run. -/
theorem final (c : Dev nD) :
    (dats m 0 c).arrAt 2 cfg0.N = whole (m ((c : Thread nD τ).loc main_arg0)) (m ((c : Thread nD τ).loc main_arg1)) :=
  (dats m 0 c).arrAt_eq_of_cover 2 (whole (V m c main_arg0) (V m c main_arg1)) (fun t _ => flushed_eq m c t) cover

/-- The kernel's run, read: the result array at `whole` of the arguments, the arguments unchanged. -/
theorem run : θ_run defs (onTc (τ := τ) (main (F := Ideal))) ⟨m, fun _ => 0, ρ⟩ fun r => ∀ c : Dev nD,
      r.2.mem ((c : Thread nD τ).loc main_v0) = whole (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelWhole

end
-- ==== Proof.lean ====
/-
  Pairwise adjacency of 512 nodes per batch entry, for 64 batch entries: a kernel on a grid of 64 points against a
  whole-array reference.

  From feature rows `X` ([64, 512, 128]) and planar positions `C` ([64, 512, 2]) both programs produce the array
  `Adjacency.whole X C` of shape [2, 64, 512, 512]: for batch entry `b`, matrix 0 is the cosine similarity of the
  rows (each divided by its norm, floored at `ε`) times `exp` of minus the Euclidean distance of the positions, off the
  diagonal; matrix 1 is the indicator of distance below one, off the diagonal. The diagonal's indicator is added under
  the distance's square root.

  The kernel handles one batch entry per grid point and stores the two matrices into one block; the reference applies the
  same operations to all batch entries at once and stacks the two results. At the extended reals the kernel's matrix
  product into a zero accumulator and the reference's batched contraction are the same sums; the kernel's `0 − x` is the
  reference's `−x`; the kernel converts the diagonal's one-bit comparison through a 32-bit signed integer where the
  reference converts the bit directly, the same number. Everything else is the same operation on the same entries, so the
  two results agree at every extended real, finite or not: the precondition is not used for the values.

  `Adjacency` states the mathematics; `RefAdjacency` reads the reference's operations one by one to it;
  `KernelAdjacency` reads the kernel body's arithmetic at an entry; `KernelWhole` passes from the 64 blocks to the array.
  The three frames are the generated ones (the reference's frame is its generated run with the result dropped); the
  idealisation rewrote nothing, so there is nothing to preserve.
-/
import proofs.«136676_j88038239633881_1_alg».proof.Defs
import proofs.«136676_j88038239633881_1_alg».proof.Proof.Gen.Kernel
import proofs.«136676_j88038239633881_1_alg».proof.Proof.Gen.Kernel.Skeleton
import proofs.«136676_j88038239633881_1_alg».proof.Proof.Gen.Kernel.Launch
import proofs.«136676_j88038239633881_1_alg».proof.Proof.Gen.Kernel.Points
import proofs.«136676_j88038239633881_1_alg».proof.Proof.Gen.Kernel.Frame
import proofs.«136676_j88038239633881_1_alg».proof.Proof.Gen.KernelIdeal
import proofs.«136676_j88038239633881_1_alg».proof.Proof.Gen.KernelIdeal.Skeleton
import proofs.«136676_j88038239633881_1_alg».proof.Proof.Gen.KernelIdeal.Launch
import proofs.«136676_j88038239633881_1_alg».proof.Proof.Gen.KernelIdeal.Points
import proofs.«136676_j88038239633881_1_alg».proof.Proof.Gen.KernelIdeal.Frame
import proofs.«136676_j88038239633881_1_alg».proof.Proof.Gen.ReferenceIdeal
import proofs.«136676_j88038239633881_1_alg».proof.Proof.Gen.Pre_finite_inputs
import proofs.«136676_j88038239633881_1_alg».proof.Proof.Gen.KernelIdeal.Value
import proofs.«136676_j88038239633881_1_alg».proof.Proof.Gen.ReferenceIdeal.Run
import proofs.«136676_j88038239633881_1_alg».proof.Proof.Gen.ReferenceIdeal.Read
import proofs.«136676_j88038239633881_1_alg».proof.Proof.RefAdjacency
import proofs.«136676_j88038239633881_1_alg».proof.Proof.KernelWhole
import Idealize.ShloMosaic.Adequacy
import Idealize.ShloMosaic.Init

noncomputable section

namespace Cert.Proof

open Idealize.ShloMosaic Idealize.ShloMosaic.TcCoe Idealize.SL.Sem

namespace Claims

/-- The kernel as printed runs and leaves its arguments alone. -/
theorem frame_kernel : Cert.frame_Kernel := fun m ρ _ => Cert.Kernel.Gen.frame m ρ

/-- So does its idealisation. -/
theorem frame_kernelIdeal : Cert.frame_KernelIdeal := fun m ρ _ => Cert.KernelIdeal.Gen.frame m ρ

/-- The reference runs and leaves its arguments alone: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- From memories that agree on the arguments both programs end with `Adjacency.whole` of them. -/
theorem algebraic : Cert.algebraic_KernelIdeal_ReferenceIdeal := by
  intro m ρ m' ρ' _ hagree
  refine ⟨fun c => Cert.Adjacency.whole (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelWhole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v42_eq, Cert.RefAdjacency.ref_whole, (hagree c).1, (hagree c).2]

end Claims

theorem claim : Cert.Claim :=
  ⟨Cert.Kernel.Gen.facts, Cert.KernelIdeal.Gen.facts, Cert.ReferenceIdeal.Gen.facts, Cert.Pre_finite_inputs.Gen.facts,
    Claims.frame_kernel, Claims.frame_kernelIdeal, Claims.frame_referenceIdeal, Claims.preserves, Claims.algebraic⟩

end Cert.Proof

end
